-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S65536x512 : Shape := ⟨2, ![65536, 512]⟩
abbrev S1000x512 : Shape := ⟨2, ![1000, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_

variable [Facts]

def fn {F : FTy → Type} [FloatOps F] (main_arg0 : IVec S65536 32) (main_arg1 : FVec F S65536x512 .f32) (main_arg2 : FVec F S1000x512 .f32) : IVec S_ 1 :=
  let main_v0 : FVec F S65536x512 .f32 := Host.absf main_arg1
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S1000x512 .f32 := Host.absf main_arg2
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  main_v8
-- ==== Kernel.lean ====
abbrev S65536 : Shape := ⟨1, ![65536]⟩
abbrev S65536x512 : Shape := ⟨2, ![65536, 512]⟩
abbrev S1000x512 : Shape := ⟨2, ![1000, 512]⟩
abbrev S_ : Shape := ⟨0, ![]⟩
abbrev S1000 : Shape := ⟨1, ![1000]⟩
abbrev S65536x1 : Shape := ⟨2, ![65536, 1]⟩
abbrev S1x1 : Shape := ⟨2, ![1, 1]⟩
abbrev S1024x512 : Shape := ⟨2, ![1024, 512]⟩
abbrev S1024x1 : Shape := ⟨2, ![1024, 1]⟩
abbrev S1024 : Shape := ⟨1, ![1024]⟩
abbrev S1 : Shape := ⟨1, ![1]⟩

abbrev nBuf : Space → Nat
  | .hbm => 48
  | .vmem => 8
  | .smem => 0
  | _ => 0

abbrev bufTy : (tb : Table) → Fin (tcTables nBuf tb) → BufTy
  | .hbm, ⟨0, _⟩ => ⟨S65536, .i32⟩
  | .hbm, ⟨1, _⟩ => ⟨S65536x512, .f32⟩
  | .hbm, ⟨2, _⟩ => ⟨S1000x512, .f32⟩
  | .hbm, ⟨3, _⟩ => ⟨S_, .f32⟩
  | .hbm, ⟨4, _⟩ => ⟨S1000, .f32⟩
  | .hbm, ⟨5, _⟩ => ⟨S_, .i32⟩
  | .hbm, ⟨6, _⟩ => ⟨S65536, .i32⟩
  | .hbm, ⟨7, _⟩ => ⟨S65536, .i1⟩
  | .hbm, ⟨8, _⟩ => ⟨S_, .i32⟩
  | .hbm, ⟨9, _⟩ => ⟨S65536, .i32⟩
  | .hbm, ⟨10, _⟩ => ⟨S65536, .i32⟩
  | .hbm, ⟨11, _⟩ => ⟨S65536, .i32⟩
  | .hbm, ⟨12, _⟩ => ⟨S65536x1, .i32⟩
  | .hbm, ⟨13, _⟩ => ⟨S_, .f32⟩
  | .hbm, ⟨14, _⟩ => ⟨S65536, .f32⟩
  | .hbm, ⟨15, _⟩ => ⟨S1000, .f32⟩
  | .hbm, ⟨16, _⟩ => ⟨S_, .f32⟩
  | .hbm, ⟨17, _⟩ => ⟨S1000, .f32⟩
  | .hbm, ⟨18, _⟩ => ⟨S1000, .f32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i32⟩
  | .hbm, ⟨25, _⟩ => ⟨S65536, .i32⟩
  | .hbm, ⟨26, _⟩ => ⟨S65536x1, .i32⟩
  | .hbm, ⟨27, _⟩ => ⟨S65536, .f32⟩
  | .hbm, ⟨28, _⟩ => ⟨S_, .i32⟩
  | .hbm, ⟨29, _⟩ => ⟨S65536, .i32⟩
  | .hbm, ⟨30, _⟩ => ⟨S65536, .i1⟩
  | .hbm, ⟨31, _⟩ => ⟨S_, .i32⟩
  | .hbm, ⟨32, _⟩ => ⟨S65536, .i32⟩
  | .hbm, ⟨33, _⟩ => ⟨S65536, .i32⟩
  | .hbm, ⟨34, _⟩ => ⟨S65536, .i32⟩
  | .hbm, ⟨35, _⟩ => ⟨S65536x1, .i32⟩
  | .hbm, ⟨36, _⟩ => ⟨S65536x512, .f32⟩
  | .hbm, ⟨37, _⟩ => ⟨S_, .f32⟩
  | .hbm, ⟨38, _⟩ => ⟨S65536, .f32⟩
  | .hbm, ⟨39, _⟩ => ⟨S65536, .f32⟩
  | .hbm, ⟨40, _⟩ => ⟨S65536x1, .f32⟩
  | .hbm, ⟨41, _⟩ => ⟨S1x1, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1x1, .f32⟩
  | .local _ .vmem, ⟨7, _⟩ => ⟨S1x1, .f32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_c_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v20 : BitVec 1 := Scalar.cmpi .eq arg0 c63_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S1000 : S_.BroadcastsInDim S1000 (![] : Fin 0 → Fin S1000.rank)
  bcast_S_S65536 : S_.BroadcastsInDim S65536 (![] : Fin 0 → Fin S65536.rank)
  bcast_S65536_S65536x1_0 : S65536.BroadcastsInDim S65536x1 (![0] : Fin 1 → Fin S65536x1.rank)
  shapeCasts_S65536_S65536x1 : S65536.ShapeCasts S65536x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1_S1 : S1024x1.Reduces [0] S1
  shapeCasts_S1_S1x1 : S1.ShapeCasts S1x1
  shapeCasts_S1x1_S_ : S1x1.ShapeCasts S_
  scatter_S1000_S65536x1_S65536_n_0_0_1_wf : ScatterDims.WF S1000 S65536x1 S65536 [] [0] [0] 1
  gather_S1000_S65536x1_S65536_n_0_n_n_0_1_1_wf : GatherDims.WF S1000 S65536x1 S65536 [] [0] [] [0] [] 1 ![1]
  gather_S1000x512_S65536x1_S65536x512_1_0_n_n_0_1_1512_wf : GatherDims.WF S1000x512 S65536x1 S65536x512 [1] [0] [] [0] [] 1 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S65536x1.size a
  hwx0_2 : ∀ i : grid0.Coords, EltTy.bits .f32 = 32 ∨ (Rect.block (s := S65536x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def scatter_S1000_S65536x1_S65536_n_0_0_1 : ScatterDims S1000 S65536x1 S65536 where
  updateWindowDims := []
  insertedWindowDims := [0]
  scatterDimsToOperandDims := [0]
  indexVectorDim := 1
  wf := scatter_S1000_S65536x1_S65536_n_0_0_1_wf
def gather_S1000_S65536x1_S65536_n_0_n_n_0_1_1 : GatherDims S1000 S65536x1 S65536 where
  offsetDims := []
  collapsedSliceDims := [0]
  operandBatchingDims := []
  startIndicesBatchingDims := []
  startIndexMap := [0]
  indexVectorDim := 1
  sliceSizes := ![1]
  wf := gather_S1000_S65536x1_S65536_n_0_n_n_0_1_1_wf
def gather_S1000x512_S65536x1_S65536x512_1_0_n_n_0_1_1512 : GatherDims S1000x512 S65536x1 S65536x512 where
  offsetDims := [1]
  collapsedSliceDims := [0]
  operandBatchingDims := []
  startIndicesBatchingDims := []
  startIndexMap := [0]
  indexVectorDim := 1
  sliceSizes := ![1, 512]
  wf := gather_S1000x512_S65536x1_S65536x512_1_0_n_n_0_1_1512_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S65536 : Shape := ⟨1, ![65536]⟩
abbrev S65536x512 : Shape := ⟨2, ![65536, 512]⟩
abbrev S1000x512 : Shape := ⟨2, ![1000, 512]⟩
abbrev S_ : Shape := ⟨0, ![]⟩
abbrev S1000 : Shape := ⟨1, ![1000]⟩
abbrev S65536x1 : Shape := ⟨2, ![65536, 1]⟩

abbrev nBuf : Space → Nat
  | .hbm => 49
  | .vmem => 0
  | .smem => 0
  | _ => 0

abbrev bufTy : (tb : Table) → Fin (tcTables nBuf tb) → BufTy
  | .hbm, ⟨0, _⟩ => ⟨S65536, .i32⟩
  | .hbm, ⟨1, _⟩ => ⟨S65536x512, .f32⟩
  | .hbm, ⟨2, _⟩ => ⟨S1000x512, .f32⟩
  | .hbm, ⟨3, _⟩ => ⟨S_, .f32⟩
  | .hbm, ⟨4, _⟩ => ⟨S1000, .f32⟩
  | .hbm, ⟨5, _⟩ => ⟨S_, .i32⟩
  | .hbm, ⟨6, _⟩ => ⟨S65536, .i32⟩
  | .hbm, ⟨7, _⟩ => ⟨S65536, .i1⟩
  | .hbm, ⟨8, _⟩ => ⟨S_, .i32⟩
  | .hbm, ⟨9, _⟩ => ⟨S65536, .i32⟩
  | .hbm, ⟨10, _⟩ => ⟨S65536, .i32⟩
  | .hbm, ⟨11, _⟩ => ⟨S65536, .i32⟩
  | .hbm, ⟨12, _⟩ => ⟨S65536x1, .i32⟩
  | .hbm, ⟨13, _⟩ => ⟨S_, .f32⟩
  | .hbm, ⟨14, _⟩ => ⟨S65536, .f32⟩
  | .hbm, ⟨15, _⟩ => ⟨S1000, .f32⟩
  | .hbm, ⟨16, _⟩ => ⟨S_, .f32⟩
  | .hbm, ⟨17, _⟩ => ⟨S1000, .f32⟩
  | .hbm, ⟨18, _⟩ => ⟨S1000, .f32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i32⟩
  | .hbm, ⟨25, _⟩ => ⟨S65536, .i32⟩
  | .hbm, ⟨26, _⟩ => ⟨S65536x1, .i32⟩
  | .hbm, ⟨27, _⟩ => ⟨S65536, .f32⟩
  | .hbm, ⟨28, _⟩ => ⟨S_, .i32⟩
  | .hbm, ⟨29, _⟩ => ⟨S65536, .i32⟩
  | .hbm, ⟨30, _⟩ => ⟨S65536, .i1⟩
  | .hbm, ⟨31, _⟩ => ⟨S_, .i32⟩
  | .hbm, ⟨32, _⟩ => ⟨S65536, .i32⟩
  | .hbm, ⟨33, _⟩ => ⟨S65536, .i32⟩
  | .hbm, ⟨34, _⟩ => ⟨S65536, .i32⟩
  | .hbm, ⟨35, _⟩ => ⟨S65536x1, .i32⟩
  | .hbm, ⟨36, _⟩ => ⟨S65536x512, .f32⟩
  | .hbm, ⟨37, _⟩ => ⟨S65536x512, .f32⟩
  | .hbm, ⟨38, _⟩ => ⟨S65536x512, .f32⟩
  | .hbm, ⟨39, _⟩ => ⟨S_, .f32⟩
  | .hbm, ⟨40, _⟩ => ⟨S65536, .f32⟩
  | .hbm, ⟨41, _⟩ => ⟨S65536, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_c_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S_S1000 : S_.BroadcastsInDim S1000 (![] : Fin 0 → Fin S1000.rank)
  bcast_S_S65536 : S_.BroadcastsInDim S65536 (![] : Fin 0 → Fin S65536.rank)
  bcast_S65536_S65536x1_0 : S65536.BroadcastsInDim S65536x1 (![0] : Fin 1 → Fin S65536x1.rank)
  reducesTo_S65536x512_S65536_d1 : S65536x512.ReducesTo [1] S65536
  h_S_ : 0 < S_.numel
  reducesTo_S65536_S_d0 : S65536.ReducesTo [0] S_
  scatter_S1000_S65536x1_S65536_n_0_0_1_wf : ScatterDims.WF S1000 S65536x1 S65536 [] [0] [0] 1
  gather_S1000_S65536x1_S65536_n_0_n_n_0_1_1_wf : GatherDims.WF S1000 S65536x1 S65536 [] [0] [] [0] [] 1 ![1]
  gather_S1000x512_S65536x1_S65536x512_1_0_n_n_0_1_1512_wf : GatherDims.WF S1000x512 S65536x1 S65536x512 [1] [0] [] [0] [] 1 ![1, 512]

variable [Facts₀]

def scatter_S1000_S65536x1_S65536_n_0_0_1 : ScatterDims S1000 S65536x1 S65536 where
  updateWindowDims := []
  insertedWindowDims := [0]
  scatterDimsToOperandDims := [0]
  indexVectorDim := 1
  wf := scatter_S1000_S65536x1_S65536_n_0_0_1_wf
def gather_S1000_S65536x1_S65536_n_0_n_n_0_1_1 : GatherDims S1000 S65536x1 S65536 where
  offsetDims := []
  collapsedSliceDims := [0]
  operandBatchingDims := []
  startIndicesBatchingDims := []
  startIndexMap := [0]
  indexVectorDim := 1
  sliceSizes := ![1]
  wf := gather_S1000_S65536x1_S65536_n_0_n_n_0_1_1_wf
def gather_S1000x512_S65536x1_S65536x512_1_0_n_n_0_1_1512 : GatherDims S1000x512 S65536x1 S65536x512 where
  offsetDims := [1]
  collapsedSliceDims := [0]
  operandBatchingDims := []
  startIndicesBatchingDims := []
  startIndexMap := [0]
  indexVectorDim := 1
  sliceSizes := ![1, 512]
  wf := gather_S1000x512_S65536x1_S65536x512_1_0_n_n_0_1_1512_wf

class Facts : Prop extends Facts₀ where

variable [Facts]
-- ==== Proof.RunningTotal.lean ====
/-
  The kernel's running total, point by point.

  The grid has `64` points. The body keeps a `1 × 1` total in a buffer of its own that survives from one point to
  the next. At the first point it stores zero there and then adds the first block's contribution; at every later
  point it adds that point's block's contribution to what the point before left; at the last point it also copies the
  total into the `1 × 1` output block, which is the whole output array and is written back there only.

  So after point `n` the buffer holds `total n`: the body's one arithmetic term applied to point `n`'s three input
  blocks and to `total (n − 1)` (to the stored zero at the first point). This is shown by induction on the point from
  what each of the three control cases leaves behind; the output array after the region is `total 63`.
-/
import proofs.«161336_j70437463654503_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Total

open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-! ## What each control case leaves -/

/-- The first point: the body stores zero into its total, reads it back, and leaves the first block's contribution
    added to it. -/
theorem first_leaves (c : Dev nD) (i : grid0.Coords) (a1 : Memref sig .tc .vmem S1024x512 .f32) (h1 : a1.IsWhole) (a2 : Memref sig .tc .vmem S1024x512 .f32) (h2 : a2.IsWhole) (a3 : Memref sig .tc .vmem S1024x1 .f32) (h3 : a3.IsWhole) (a4 : Memref sig .tc .vmem S1x1 .f32) (h4 : a4.IsWhole) (a5 : Memref sig .tc .vmem S1x1 .f32) (h5 : a5.IsWhole) (hc0 : cond0_0 i) (hc1 : ¬cond0_1 i)
    (x0 : Vec F S1024x512 .f32) (x1 : Vec F S1024x512 .f32) (x2 : Vec F S1024x1 .f32) :
    sout0_A_0 c i a1 h1 a2 h2 a3 h3 a4 h4 a5 h5 hc0 hc1 x0 x1 x2 = k0_pay2 x0 x1 x2 k0_pay1 := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S1024x512) hz, View.ld_unit_zero (S := S1024x1) hz, View.ld_unit_zero (S := S1x1) hz]

/-- A middle point: the body leaves the block's contribution added to the total `s` it found. -/
theorem middle_leaves (c : Dev nD) (i : grid0.Coords) (a1 : Memref sig .tc .vmem S1024x512 .f32) (h1 : a1.IsWhole) (a2 : Memref sig .tc .vmem S1024x512 .f32) (h2 : a2.IsWhole) (a3 : Memref sig .tc .vmem S1024x1 .f32) (h3 : a3.IsWhole) (a4 : Memref sig .tc .vmem S1x1 .f32) (h4 : a4.IsWhole) (a5 : Memref sig .tc .vmem S1x1 .f32) (h5 : a5.IsWhole) (hc0 : ¬cond0_0 i) (hc1 : ¬cond0_1 i)
    (x0 : Vec F S1024x512 .f32) (x1 : Vec F S1024x512 .f32) (x2 : Vec F S1024x1 .f32) (s : Vec F S1x1 .f32) :
    sout0_B_0 c i a1 h1 a2 h2 a3 h3 a4 h4 a5 h5 hc0 hc1 x0 x1 x2 s = k0_pay2 x0 x1 x2 s := by
  unfold sout0_B_0
  rw [View.read_writes_eq_canon _ _ _ (scover0_B_0 c i a1 h1 a2 h2 a3 h3 a4 h4 a5 h5 hc0 hc1 x0 x1 x2 s)]
  unfold kernelRun0_B
  dsimp only
  rw [View.canon_unit_zero hz]
  simp only [View.readAt_eq_ld, h1.read_unread, h2.read_unread, h3.read_unread, h5.read_unread,
    View.ld_unit_zero (S := S1024x512) hz, View.ld_unit_zero (S := S1024x1) hz, View.ld_unit_zero (S := S1x1) hz]

/-- The last point leaves the same in its total, -/
theorem last_leaves (c : Dev nD) (i : grid0.Coords) (a1 : Memref sig .tc .vmem S1024x512 .f32) (h1 : a1.IsWhole) (a2 : Memref sig .tc .vmem S1024x512 .f32) (h2 : a2.IsWhole) (a3 : Memref sig .tc .vmem S1024x1 .f32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i)
    (x0 : Vec F S1024x512 .f32) (x1 : Vec F S1024x512 .f32) (x2 : Vec F S1024x1 .f32) (s : Vec F S1x1 .f32) :
    sout0_C_0 c i a1 h1 a2 h2 a3 h3 a4 h4 a5 h5 hc0 hc1 x0 x1 x2 s = k0_pay2 x0 x1 x2 s := by
  unfold sout0_C_0
  rw [View.read_writes_eq_canon _ _ _ (scover0_C_0 c i a1 h1 a2 h2 a3 h3 a4 h4 a5 h5 hc0 hc1 x0 x1 x2 s)]
  unfold kernelRun0_C
  dsimp only
  sl_unfold_words
  rw [View.canon_unit_zero hz]
  simp only [View.readAt_eq_ld, h1.read_unread, h2.read_unread, h3.read_unread, h5.read_unread,
    View.ld_unit_zero (S := S1024x512) hz, View.ld_unit_zero (S := S1024x1) hz, View.ld_unit_zero (S := S1x1) hz]

/-- and copies it into the output block: the copy is the total read back after the store that wrote it. -/
theorem last_writes (c : Dev nD) (i : grid0.Coords) (a1 : Memref sig .tc .vmem S1024x512 .f32) (h1 : a1.IsWhole) (a2 : Memref sig .tc .vmem S1024x512 .f32) (h2 : a2.IsWhole) (a3 : Memref sig .tc .vmem S1024x1 .f32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i)
    (x0 : Vec F S1024x512 .f32) (x1 : Vec F S1024x512 .f32) (x2 : Vec F S1024x1 .f32) (s : Vec F S1x1 .f32) :
    out0_C_3 c i a1 h1 a2 h2 a3 h3 a4 h4 a5 h5 hc0 hc1 x0 x1 x2 s = k0_pay2 x0 x1 x2 s := by
  unfold out0_C_3
  rw [View.read_writes_eq_canon _ _ _ (cover0_C_3 c i a1 h1 a2 h2 a3 h3 a4 h4 a5 h5 hc0 hc1 x0 x1 x2 s)]
  unfold kernelRun0_C
  dsimp only
  sl_unfold_words
  rw [View.canon_unit_zero hz, View.readCov_unit_zero (S := S1x1) _ hz]
  simp only [View.readAt_eq_ld, h1.read_unread, h2.read_unread, h3.read_unread, h5.read_unread,
    View.ld_unit_zero (S := S1024x512) hz, View.ld_unit_zero (S := S1024x1) hz, View.ld_unit_zero (S := S1x1) hz]

/-! ## The running total -/

/-- The total after point `n`: the body's term of the point's three input blocks and of the total after the point
    before, starting from the stored zero. -/
def total (c : Dev nD) : (n : ℕ) → n < cfg0.N → Vec F S1x1 .f32
  | 0, h => k0_pay2 (iblk m c 0 ⟨0, h⟩) (iblk m c 1 ⟨0, h⟩) (iblk m c 2 ⟨0, h⟩) k0_pay1
  | n + 1, h => k0_pay2 (iblk m c 0 ⟨n + 1, h⟩) (iblk m c 1 ⟨n + 1, h⟩) (iblk m c 2 ⟨n + 1, h⟩)
      (total c n (Nat.lt_of_succ_lt h))

/-- The total after the first point. -/
theorem total_zero (c : Dev nD) (h : 0 < cfg0.N) :
    total m c 0 h = k0_pay2 (iblk m c 0 ⟨0, h⟩) (iblk m c 1 ⟨0, h⟩) (iblk m c 2 ⟨0, h⟩) k0_pay1 := rfl

/-- The total after a later point. -/
theorem total_succ (c : Dev nD) (n : ℕ) (h : n + 1 < cfg0.N) :
    total m c (n + 1) h = k0_pay2 (iblk m c 0 ⟨n + 1, h⟩) (iblk m c 1 ⟨n + 1, h⟩) (iblk m c 2 ⟨n + 1, h⟩)
      (total m c n (Nat.lt_of_succ_lt h)) := rfl

/-- What the body's own buffer holds after point `n` is the running total: by induction on the point, each point in
    the control case its position selects. -/
theorem carried_eq (c : Dev nD) : ∀ (n : ℕ) (h : n < cfg0.N), (outsAt0 m c n h).2 = total m c n h
  | 0, h => by
    rw [outsAt0_A m c ⟨0, h⟩ rfl (by dsimp only; omega)]
    dsimp only
    rw [first_leaves]
    rfl
  | n + 1, h => by
    have hN : cfg0.N = 64 := N_0
    have h0 : ¬(⟨n + 1, h⟩ : Fin cfg0.N).val % 64 = 0 := by dsimp only; omega
    by_cases h1 : (⟨n + 1, h⟩ : Fin cfg0.N).val % 64 = 63
    · rw [outsAt0_C m c ⟨n + 1, h⟩ h0 h1]
      dsimp only
      rw [last_leaves]
      show k0_pay2 _ _ _ (outsAt0 m c n _).2 = k0_pay2 _ _ _ (total m c n _)
      rw [carried_eq c n]
    · rw [outsAt0_B m c ⟨n + 1, h⟩ h0 h1]
      dsimp only
      rw [middle_leaves]
      show k0_pay2 _ _ _ (outsAt0 m c n _).2 = k0_pay2 _ _ _ (total m c n _)
      rw [carried_eq c n]

/-- The last point. -/
abbrev tLast : Fin cfg0.N := ⟨63, by rw [show cfg0.N = 64 from N_0]; decide⟩

/-- The total after the last point, as contents of the output array (its one block is the whole array). -/
abbrev result (c : Dev nD) : Buf (Elt F) ((c : Thread nD τ).loc main_v28) := total m c 63 tLast.isLt

/-- What the output block holds after the last point is the final total. -/
theorem written_eq (c : Dev nD) : (outsAt0 m c tLast.val tLast.isLt).1 = result m c := by
  rw [outsAt0_C m c tLast (by decide) (by decide)]
  dsimp only
  rw [last_writes]
  show k0_pay2 _ _ _ (outsAt0 m c 62 _).2 = k0_pay2 _ _ _ (total m c 62 _)
  rw [carried_eq m c 62]

/-- The one write-back, at the last point, writes the final total: block `(0, 0)` of a `1 × 1` array is the array. -/
theorem flushed_eq (c : Dev nD) (t : Fin cfg0.N) (hf : (cfg0.win 3).flush t = true) :
    (dats m 0 c).flushed 3 t = ((cfg0.win 3).blk t).view.read (Elt F) (result m c) := by
  have hN : cfg0.N = 64 := N_0
  have h63 : t.val = 63 := by have := (flush0_3 t).mp hf; have := t.isLt; omega
  obtain rfl : t = tLast := Fin.ext h63
  show (cfg0.win 3).cut (grid0.coords tLast) ((dats m 0 c).after 3 tLast) = _
  rw [after0_3, written_eq]
  have hz' : (fun a => win0_3.index tLast a * main_v28.ty.shape.size a) = fun _ => 0 := funext fun a => by fin_cases a <;> rfl
  exact (Memref.read_access_unit_zero (Elt F) main_v28 hz' (fun a => by rw [congrFun hz' a]; simp) (result m c)).symm

/-- So the output array ends holding the final total: the last point's block covers it. -/
theorem final (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v28).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from rfl, show win0_3.xsize (grid0.coords tLast) 0 = 1 from rfl]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from rfl, show win0_3.xsize (grid0.coords tLast) 1 = 1 from rfl]; omega⟩

end Cert.KernelIdeal.Total

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«161336_j70437463654503_1_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.BlockAdds.lean ====
/-
  What the kernel's body adds to its running total at one grid point, read at the total's one entry.

  At a point the body holds a block `x` of `1024` hidden rows, the block `p` of their predicted centres, the column
  `w` of their `1024` weights, and the running total `s` (a `1 × 1` array). It forms, row by row, the sum over the
  `512` lanes of `(x − p) · (x − p)`, multiplies each row's sum by the row's weight, sums the `1024` products, and
  adds the result to `s`. At the first point the total it starts from is the zero it has just stored.
-/
import proofs.«161336_j70437463654503_1_alg».proof.Proof.Gen.KernelIdeal.Skeleton
import proofs.«161336_j70437463654503_1_alg».proof.Proof.LibColumn
import proofs.«161336_j70437463654503_1_alg».proof.Proof.LibBlockOps

noncomputable section

open scoped BigOperators

namespace Cert.KernelIdeal.BlockAdds

open Idealize.ShloMosaic Idealize.ShloMosaic.ValueIdx Cert.KernelIdeal Cert.KernelIdeal.Gen

/-- The value the first point stores before it accumulates: zero. -/
theorem reset_apply : (k0_pay1 (F := Ideal) (ix2 (0 : Fin 1) (0 : Fin 1)) : EReal) = 0 := by
  unfold k0_pay1
  rw [shapeCast_self]
  exact Ideal.ofBits_zero_f32

/-- The new total at its entry: the old total plus the sum over the block's rows of the row's squared distance
    times the row's weight. -/
theorem adds_apply (x p : Vec Ideal S1024x512 .f32) (w : Vec Ideal S1024x1 .f32) (s : Vec Ideal S1x1 .f32) :
    (k0_pay2 (F := Ideal) x p w s (ix2 (0 : Fin 1) (0 : Fin 1)) : EReal)
      = (s (ix2 (0 : Fin 1) (0 : Fin 1)) : EReal)
        + ∑ r : Fin 1024, (∑ d : Fin 512, ((x (ix2 r d) : EReal) - p (ix2 r d)) * ((x (ix2 r d) : EReal) - p (ix2 r d)))
            * (w (ix2 r (0 : Fin 1)) : EReal) := by
  unfold k0_pay2
  dsimp only
  rw [shapeCast_self, addf_apply]
  congr 1
  refine (Cert.Lib.Column.col_apply _ _ (0 : Fin 1)).trans ?_
  refine (Cert.Lib.Column.colSum_apply _ _ _ _ _).trans ?_
  refine Finset.sum_congr rfl fun r _ => ?_
  rw [mulf_apply]
  congr 1
  · refine (Cert.Lib.Column.col_apply _ _ r).trans ?_
    refine (Cert.Lib.BlockOps.rowSum_apply _ _ _ _ _ r).trans ?_
    refine Finset.sum_congr rfl fun d _ => ?_
    rw [mulf_apply, subf_apply, shapeCast_self]
  · rw [shapeCast_self]

end Cert.KernelIdeal.BlockAdds

end
-- ==== Proof.WeightedDist.lean ====
/-
  The weighted sum of squared distances, formed in two ways.

  There are `65536 = 64 · 1024` rows. Row `b` has a hidden vector `h b` and a predicted centre `p b`, both of
  `512` entries, and a class count `n b`. The squared distance of row `b` is
  `dist b = ∑ d, (h (b, d) − p (b, d)) · (h (b, d) − p (b, d))`.

  * One program forms `0 + ∑ b, (0 + dist b) / n b` over all rows at once.
  * The other walks over `64` blocks of `1024` rows, keeping a running total that starts at `0`: at block `t` it adds
    `∑ r, dist (1024 t + r) · w (1024 t + r)`, where the weight is `w b = 1 / n b`.

  Over the extended reals the two agree as soon as no count is `0`: off zero a quotient `x / n` is the product
  `x · n⁻¹`, so `x · (1 / n) = x · (1 · n⁻¹) = x / n`; and sums of extended reals regroup freely (addition is
  commutative and associative there, infinities included), so the sum over the rows is the sum over the blocks of
  the sums inside each block.
-/
import Idealize.ShloMosaic.PureOps.Ideal.Laws
import Idealize.ShloMosaic.Lib.ValueIdx

noncomputable section

open scoped BigOperators

namespace Cert.WeightedDist

open Idealize.ShloMosaic Idealize.ShloMosaic.ValueIdx

/-! ## Two laws of the extended reals -/

/-- Off zero, multiplying by the reciprocal is dividing: `x · (1 / y) = x / y`, at the infinities too. -/
theorem mul_div_one {x y : EReal} (hy : y ≠ 0) : x * Ideal.div 1 y = Ideal.div x y := by
  unfold Ideal.div
  rw [if_neg hy, if_neg hy, one_mul]

/-- A sum over `T · R` consecutive numbers is the sum over `T` blocks of the sums over the `R` numbers of each. -/
theorem sum_blocks {A : Type*} [AddCommMonoid A] (T R : ℕ) (f : ℕ → A) :
    ∑ b : Fin (T * R), f b.val = ∑ t : Fin T, ∑ r : Fin R, f (R * t.val + r.val) := by
  rw [← Equiv.sum_comp finProdFinEquiv, Fintype.sum_prod_type]
  refine Finset.sum_congr rfl fun t _ => Finset.sum_congr rfl fun r _ => ?_
  congr 1
  show r.val + R * t.val = R * t.val + r.val
  omega

/-! ## The two forms -/

/-- Row `1024 t + r`: row `r` of block `t`. -/
def row (t : Fin 64) (r : Fin 1024) : Fin 65536 := ⟨1024 * t.val + r.val, by have := t.isLt; have := r.isLt; omega⟩

/-- The squared distance of row `b`. -/
def dist (h p : (⟨2, ![65536, 512]⟩ : Shape).Idx → EReal) (b : Fin 65536) : EReal :=
  ∑ d : Fin 512, (h (ix2 b d) - p (ix2 b d)) * (h (ix2 b d) - p (ix2 b d))

/-- What block `t` adds to the running total: its rows' distances, each times its row's weight. -/
def blockTerm (h p : (⟨2, ![65536, 512]⟩ : Shape).Idx → EReal) (w : (⟨2, ![65536, 1]⟩ : Shape).Idx → EReal)
    (t : Fin 64) : EReal :=
  ∑ r : Fin 1024, dist h p (row t r) * w (ix2 (row t r) (0 : Fin 1))

/-- The blockwise total: the sum over the blocks of what each adds. -/
def blockSum (h p : (⟨2, ![65536, 512]⟩ : Shape).Idx → EReal) (w : (⟨2, ![65536, 1]⟩ : Shape).Idx → EReal) : EReal :=
  ∑ t : Fin 64, blockTerm h p w t

/-- The sum over all rows at once of the distance, formed from `z`, divided by the count; itself formed from `z`. -/
def rowSum (z : EReal) (h p : (⟨2, ![65536, 512]⟩ : Shape).Idx → EReal) (n : (⟨1, ![65536]⟩ : Shape).Idx → EReal) : EReal :=
  z + ∑ j : (⟨1, ![65536]⟩ : Shape).Idx, Ideal.div (z + dist h p (j 0)) (n j)

/-- A sum over the indices of a column of `65536` entries is the sum over their numbers. -/
theorem sum_col {A : Type*} [AddCommMonoid A] (f : (⟨1, ![65536]⟩ : Shape).Idx → A) :
    ∑ j, f j = ∑ b : Fin 65536, f (ix1 b) :=
  (Equiv.sum_comp (⟨ix1, fun j => j 0, fun _ => rfl, fun j => (eq_ix1 j).symm⟩ :
    Fin 65536 ≃ (⟨1, ![65536]⟩ : Shape).Idx) f).symm

/-- THE TWO FORMS AGREE when the weight is the reciprocal of a count that is never `0`, and the sums start at `0`. -/
theorem blockSum_eq_rowSum (h p : (⟨2, ![65536, 512]⟩ : Shape).Idx → EReal)
    (w : (⟨2, ![65536, 1]⟩ : Shape).Idx → EReal) (n : (⟨1, ![65536]⟩ : Shape).Idx → EReal)
    (hw : ∀ b : Fin 65536, w (ix2 b (0 : Fin 1)) = Ideal.div 1 (n (ix1 b))) (hn : ∀ b : Fin 65536, n (ix1 b) ≠ 0) :
    blockSum h p w = rowSum 0 h p n := by
  unfold blockSum rowSum blockTerm
  rw [zero_add, sum_col]
  have e := sum_blocks 64 1024 (fun b => if hb : b < 65536 then
    Ideal.div (0 + dist h p ⟨b, hb⟩) (n (ix1 ⟨b, hb⟩)) else 0)
  have e' : (∑ b : Fin 65536, Ideal.div (0 + dist h p ((ix1 b : (⟨1, ![65536]⟩ : Shape).Idx) 0)) (n (ix1 b)))
      = ∑ b : Fin (64 * 1024), (fun b => if hb : b < 65536 then
          Ideal.div (0 + dist h p ⟨b, hb⟩) (n (ix1 ⟨b, hb⟩)) else 0) b.val :=
    Finset.sum_congr rfl fun b _ => by
      show _ = dite _ _ _
      rw [dif_pos b.isLt]
  rw [e', e]
  refine Finset.sum_congr rfl fun t _ => Finset.sum_congr rfl fun r _ => ?_
  have hlt : 1024 * t.val + r.val < 65536 := (row t r).isLt
  show _ = dite _ _ _
  rw [dif_pos hlt, zero_add, hw]
  exact mul_div_one (hn _)

/-! ## The counts and the final formula -/

/-- The pattern of `1.0` denotes `1`. -/
theorem ofBits_one : Ideal.ofBits .f32 0x3F800000#32 = 1 := by
  simp [Ideal.ofBits, Ideal.ieee, -EReal.coe_mul]; norm_num

/-- A class count is formed as `(0 + a sum of ones) + 1`, so it is at least `1` and never `0`. -/
theorem count_ne_zero {α : Type*} (S : Finset α) : ((0 : EReal) + ∑ _e ∈ S, (1 : EReal)) + 1 ≠ 0 := by
  have h : (0 : EReal) ≤ ∑ _e ∈ S, (1 : EReal) := Finset.sum_nonneg fun _ _ => zero_le_one
  rw [zero_add]
  have h1 : (1 : EReal) ≤ (∑ _e ∈ S, (1 : EReal)) + 1 := le_add_of_nonneg_left h
  exact ne_of_gt (lt_of_lt_of_le zero_lt_one h1)

/-- The loss from the weighted sum `s`: `(1/2 · s) / (s + ε)`, the two constants as the `f32` patterns both programs
    spell. The same term on both sides, so the patterns are never evaluated. -/
def lossOf (s : EReal) : (⟨0, ![]⟩ : Shape).Idx → EReal :=
  fun _ => Ideal.div (Ideal.ofBits .f32 0x3F000000#32 * s) (s + Ideal.ofBits .f32 0x358637BD#32)

end Cert.WeightedDist

end
-- ==== Proof.KernelSum.lean ====
/-
  The kernel's result as one formula.

  Before the region the host gathers, for every row, the centre row that the row's label selects and the class count
  that it selects, and sets up the column of weights `1 / count`. The region walks over `64` blocks of `1024` rows;
  block `t` of each of its three inputs is rows `1024 t … 1024 t + 1023` of the hidden array, of the gathered
  centres and of the weights. So what point `t` adds to the running total is
  `∑ r, dist (1024 t + r) · weight (1024 t + r)`, the total after the last point is the sum of these over the `64`
  blocks, and the host lines after the region turn that sum `s` into `(1/2 · s) / (s + ε)`.
-/
import proofs.«161336_j70437463654503_1_alg».proof.Proof.RunningTotal
import proofs.«161336_j70437463654503_1_alg».proof.Proof.BlockAdds
import proofs.«161336_j70437463654503_1_alg».proof.Proof.WeightedDist
import proofs.«161336_j70437463654503_1_alg».proof.Proof.LibColumn
import proofs.«161336_j70437463654503_1_alg».proof.Proof.Gen.ReferenceIdeal.Read
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem Idealize.ShloMosaic.StableHlo
open Idealize.ShloMosaic.ValueIdx
open Idealize.ShloMosaic.Pipeline (Dat)

namespace Cert.KernelIdeal.KernelSum

open Cert.KernelIdeal Cert.KernelIdeal.Gen Cert.KernelIdeal.Total Cert.KernelIdeal.BlockAdds Cert.WeightedDist

variable (m : (ℓ : Loc nD τ sig) → Buf (Elt Ideal) ℓ) (ρ : Dev nD → PrngReg)

/-! ## The arrays the region finds -/

/-- The hidden rows, as launched. -/
abbrev hidden (c : Dev nD) : S65536x512.Idx → EReal := m ((c : Thread nD τ).loc main_arg1)

/-- The predicted centres: for every row the centre row its label selects (the reference's own term for them). -/
abbrev centres (c : Dev nD) : S65536x512.Idx → EReal :=
  Cert.ReferenceIdeal.Read.val_main_v24 (F := Ideal) (m ((c : Thread nD τ).loc main_arg0)) (m ((c : Thread nD τ).loc main_arg2))

/-- The class counts: for every row the count its label selects (the reference's own term for them). -/
abbrev counts (c : Dev nD) : S65536.Idx → EReal :=
  Cert.ReferenceIdeal.Read.val_main_v17 (F := Ideal) (m ((c : Thread nD τ).loc main_arg0))

/-- The weights as the region finds them. -/
abbrev weights (c : Dev nD) : S65536x1.Idx → EReal := V m c main_v27

set_option maxRecDepth 8192 in
set_option maxHeartbeats 2000000 in
/-- The region finds the gathered centres in its second input's array. -/
theorem entry_centres (c : Dev nD) : (V m c main_v24 : S65536x512.Idx → EReal) = centres m c := by
  show StableHlo.after hostOps0 (fun b => m (c, b)) (Proc.devRef .tc main_v24) = _
  after_results_simp
  rfl

set_option maxRecDepth 8192 in
set_option maxHeartbeats 2000000 in
/-- The region finds, in its third input's array, the column of the quotients `1 / count`. -/
theorem entry_weights (c : Dev nD) : weights m c
    = shapeCast S65536x1 (Host.divf (F := Ideal) (broadcastInDim S65536 ![] Facts₀.bcast_S_S65536 (constant (F := Ideal) S_ .f32 0x3F800000#32))
        (counts m c)) Facts₀.shapeCasts_S65536_S65536x1 := by
  show StableHlo.after hostOps0 (fun b => m (c, b)) (Proc.devRef .tc main_v27) = _
  after_results_simp
  rfl

/-- The quotient of a column of ones by a column `n`, at entry `b`: `1 / n b`. -/
theorem recip_apply (n : FVec Ideal S65536 .f32) (hb : S_.BroadcastsInDim S65536 (![] : Fin 0 → Fin S65536.rank)) (b : Fin 65536) :
    (Host.divf (F := Ideal) (broadcastInDim S65536 ![] hb (constant (F := Ideal) S_ .f32 0x3F800000#32)) n (ix1 b) : EReal)
      = Ideal.div 1 (n (ix1 b)) := by
  show Ideal.div (Ideal.ofBits .f32 0x3F800000#32) (n (ix1 b)) = _
  rw [ofBits_one]

/-- Row `b`'s weight is `1 / count b`. -/
theorem weight_apply (c : Dev nD) (b : Fin 65536) :
    weights m c (ix2 b (0 : Fin 1)) = Ideal.div 1 (counts m c (ix1 b)) := by
  rw [entry_weights]
  refine (Cert.Lib.Column.col_apply _ _ b).trans ?_
  exact recip_apply _ _ b

/-! ## The blocks -/

/-- Every input's block index at point `t` is `(t, 0)`: decided over the grid. -/
theorem block_index : ∀ t : Fin cfg0.N, win0_0.index t 0 = t.val ∧ win0_0.index t 1 = 0 ∧ win0_1.index t 0 = t.val
    ∧ win0_1.index t 1 = 0 ∧ win0_2.index t 0 = t.val ∧ win0_2.index t 1 = 0 :=
  (by decide +kernel : ∀ t : Fin grid0.N, win0_0.index t 0 = t.val ∧ win0_0.index t 1 = 0 ∧ win0_1.index t 0 = t.val
    ∧ win0_1.index t 1 = 0 ∧ win0_2.index t 0 = t.val ∧ win0_2.index t 1 = 0)

/-- The three input blocks at point `t`, as arrays of extended reals. -/
abbrev xblk (c : Dev nD) (t : Fin cfg0.N) : Vec Ideal S1024x512 .f32 := iblk m c 0 t
abbrev pblk (c : Dev nD) (t : Fin cfg0.N) : Vec Ideal S1024x512 .f32 := iblk m c 1 t
abbrev wblk (c : Dev nD) (t : Fin cfg0.N) : Vec Ideal S1024x1 .f32 := iblk m c 2 t

/-- Entry `(r, d)` of the hidden block at point `t` is entry `(1024 t + r, d)` of the hidden array. -/
theorem hidden_block (c : Dev nD) (t : Fin cfg0.N) (r : Fin 1024) (d : Fin 512) :
    (xblk m c t (ix2 r d) : EReal) = hidden m c (ix2 (row (Fin.cast N_0 t) r) d) := by
  unfold xblk iblk
  rw [View.read_apply]
  show V m c main_arg1 _ = _
  rw [V_main_arg1 m c]
  congr 1
  funext a
  apply Fin.ext
  match a with
  | ⟨0, _⟩ => show win0_0.index t 0 * 1024 + 1 * r.val = 1024 * t.val + r.val; rw [(block_index t).1]; omega
  | ⟨1, _⟩ => show win0_0.index t 1 * 512 + 1 * d.val = d.val; rw [(block_index t).2.1]; omega

/-- Entry `(r, d)` of the centres' block at point `t` is entry `(1024 t + r, d)` of the gathered centres. -/
theorem centre_block (c : Dev nD) (t : Fin cfg0.N) (r : Fin 1024) (d : Fin 512) :
    (pblk m c t (ix2 r d) : EReal) = centres m c (ix2 (row (Fin.cast N_0 t) r) d) := by
  unfold pblk iblk
  rw [View.read_apply]
  show V m c main_v24 _ = _
  rw [entry_centres m c]
  congr 1
  funext a
  apply Fin.ext
  match a with
  | ⟨0, _⟩ => show win0_1.index t 0 * 1024 + 1 * r.val = 1024 * t.val + r.val; rw [(block_index t).2.2.1]; omega
  | ⟨1, _⟩ => show win0_1.index t 1 * 512 + 1 * d.val = d.val; rw [(block_index t).2.2.2.1]; omega

/-- Entry `(r, 0)` of the weights' block at point `t` is entry `(1024 t + r, 0)` of the weights. -/
theorem weight_block (c : Dev nD) (t : Fin cfg0.N) (r : Fin 1024) :
    (wblk m c t (ix2 r (0 : Fin 1)) : EReal)
      = weights m c (ix2 (row (Fin.cast N_0 t) r) (0 : Fin 1)) := by
  unfold wblk iblk
  rw [View.read_apply]
  show V m c main_v27 _ = V m c main_v27 _
  congr 1
  funext a
  apply Fin.ext
  match a with
  | ⟨0, _⟩ => show win0_2.index t 0 * 1024 + 1 * r.val = 1024 * t.val + r.val; rw [(block_index t).2.2.2.2.1]; omega
  | ⟨1, _⟩ => show win0_2.index t 1 * 1 + 1 * 0 = 0; rw [(block_index t).2.2.2.2.2]

/-- What point `t` adds to the running total is block `t`'s term of the blockwise sum. -/
theorem point_adds (c : Dev nD) (t : Fin cfg0.N) :
    (∑ r : Fin 1024, (∑ d : Fin 512,
        ((xblk m c t (ix2 r d) : EReal) - pblk m c t (ix2 r d)) * ((xblk m c t (ix2 r d) : EReal) - pblk m c t (ix2 r d)))
        * (wblk m c t (ix2 r (0 : Fin 1)) : EReal))
      = blockTerm (hidden m c) (centres m c) (weights m c) (Fin.cast N_0 t) := by
  unfold blockTerm Cert.WeightedDist.dist
  refine Finset.sum_congr rfl fun r _ => ?_
  rw [weight_block m c t r]
  refine congrArg (· * weights m c (ix2 (row (Fin.cast N_0 t) r) (0 : Fin 1))) ?_
  refine Finset.sum_congr rfl fun d _ => ?_
  rw [hidden_block m c t r d, centre_block m c t r d]

/-! ## The total -/

/-- What the point numbered `t` adds (nothing beyond the grid). -/
def added (c : Dev nD) (t : ℕ) : EReal :=
  if ht : t < 64 then blockTerm (hidden m c) (centres m c) (weights m c) ⟨t, ht⟩ else 0

/-- The total after point `n`, at its one entry, is the sum of what the points up to `n` added: the first point adds
    to the zero it stored, every later one to the total before it. -/
theorem total_apply (c : Dev nD) : ∀ (n : ℕ) (h : n < cfg0.N),
    ((total m c n h : Vec Ideal S1x1 .f32) (ix2 (0 : Fin 1) (0 : Fin 1)) : EReal) = ∑ t ∈ Finset.range (n + 1), added m c t
  | 0, h => by
    rw [total_zero]
    refine (adds_apply (xblk m c ⟨0, h⟩) (pblk m c ⟨0, h⟩) (wblk m c ⟨0, h⟩) (k0_pay1 (F := Ideal))).trans ?_
    rw [reset_apply, zero_add, Finset.sum_range_one]
    refine (point_adds m c ⟨0, h⟩).trans ?_
    unfold added
    rw [dif_pos (by decide : 0 < 64)]
    rfl
  | n + 1, h => by
    have hN : cfg0.N = 64 := N_0
    rw [total_succ]
    refine (adds_apply (xblk m c ⟨n + 1, h⟩) (pblk m c ⟨n + 1, h⟩) (wblk m c ⟨n + 1, h⟩)
      (total m c n (Nat.lt_of_succ_lt h))).trans ?_
    rw [total_apply c n, Finset.sum_range_succ _ (n + 1)]
    congr 1
    refine (point_adds m c ⟨n + 1, h⟩).trans ?_
    unfold added
    rw [dif_pos (by omega : n + 1 < 64)]
    rfl

/-- The final total, at its one entry, is the blockwise sum. -/
theorem result_apply (c : Dev nD) :
    ((result m c : Vec Ideal S1x1 .f32) (ix2 (0 : Fin 1) (0 : Fin 1)) : EReal)
      = blockSum (hidden m c) (centres m c) (weights m c) := by
  refine (total_apply m c 63 tLast.isLt).trans ?_
  rw [show 63 + 1 = 64 from rfl, Finset.sum_range]
  unfold blockSum
  refine Finset.sum_congr rfl fun t _ => ?_
  unfold added
  rw [dif_pos t.isLt]

/-! ## The host lines after the region, and the run -/

/-- The host lines after the region, applied to a `1 × 1` array `s`: the loss of its one entry. -/
theorem loss_of_entry (s : Vec Ideal S1x1 .f32) (hc : S1x1.ShapeCasts S_) :
    Host.divf (F := Ideal) (mulf (constant (F := Ideal) S_ .f32 0x3F000000#32) (shapeCast S_ s hc))
        (addf (shapeCast S_ s hc) (constant (F := Ideal) S_ .f32 0x358637BD#32))
      = lossOf (s (ix2 (0 : Fin 1) (0 : Fin 1))) := by
  funext i
  have hs : shapeCast S_ s hc i = s (ix2 (0 : Fin 1) (0 : Fin 1)) := by
    refine shapeCast_apply s hc i (ix2 (0 : Fin 1) (0 : Fin 1)) ?_
    have h1 : (S_.rowMajor i).val < 1 := (S_.rowMajor i).isLt
    rw [Shape.rowMajor_val_two]
    show 0 * 1 + 0 = _
    omega
  show Ideal.div (Ideal.ofBits .f32 0x3F000000#32 * (shapeCast S_ s hc i : EReal))
    ((shapeCast S_ s hc i : EReal) + Ideal.ofBits .f32 0x358637BD#32) = _
  rw [hs]
  rfl

/-- The result buffer after the host lines that follow the region: the loss of the blockwise sum. -/
theorem loss_eq (c : Dev nD) :
    Pipeline.afterTail₀ cfgs (dats m) 0 (V0 m) [hostOps1] c main_v32
      = lossOf (blockSum (hidden m c) (centres m c) (weights m c)) := by
  unfold Pipeline.afterTail₀
  show StableHlo.after hostOps1 _ (Proc.devRef .tc main_v32) = _
  after_results
  have hw : Pipeline.withArrays (cfgs 0).spec c (V0 m c) (fun w => (dats m 0 c).arrAt w (cfgs 0).N)
      (Proc.devRef .tc main_v28) = result m c :=
    (Pipeline.withArrays_arr spec0 launch0.win.arr_inj c _ _ 3).trans (final m c)
  rw [hw]
  exact (loss_of_entry (result m c) shapeCasts_S1x1_S_).trans (congrArg lossOf (result_apply m c))

/-- THE KERNEL'S RUN, READ: every execution ends with the result at the loss of the blockwise sum and the arguments
    as launched. -/
theorem run : θ_run defs (onTc (τ := τ) (main (F := Ideal))) ⟨m, fun _ => 0, ρ⟩ fun r => ∀ c : Dev nD,
      r.2.mem ((c : Thread nD τ).loc main_v32) = lossOf (blockSum (hidden m c) (centres m c) (weights m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v32 (Pipeline.mem_restRefs_of main_v32 (by decide) (by decide))).trans (loss_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.KernelIdeal.KernelSum

end
-- ==== Proof.LibRowScatter.lean ====
/-
  A row gather and a row scatter-add, read at an index.

  For a table `x` of `N` rows and `C` columns and a column `idx` of `M` integer words:

  * the gather of rows takes result row `e` from the operand row `idx[e]` read as a signed integer and clamped into
    `[0, N − 1]`: entry `(e, c)` of the result is `x (gatherRow idx e, c)`;
  * the scatter-add of rows adds update row `e` into the operand row `idx[e]` read as a signed integer and not
    clamped (an update whose row is outside `[0, N − 1]` is dropped): entry `(n, c)` of the result is
    `x (n, c) + ∑ e ∈ landsOn idx N n, upd (e, c)`, the sum over the update rows whose index is `n`.

  Neither the row `gatherRow idx e` nor the set `landsOn idx N n` depends on the number of columns or on the entries.
-/
import Idealize.ShloMosaic.Lib.ValueIdx
import Idealize.ShloMosaic.PureOps.Ideal.Laws
import Idealize.ShloMosaic.Lib.Pipeline.Value

noncomputable section

open scoped BigOperators

namespace Cert.Lib.RowScatter

open Idealize.ShloMosaic Idealize.ShloMosaic.ValueIdx

/-! ## The gather of rows -/

section Gather
variable {α : Type}

/-- The dimension numbers of a gather of whole rows: operand `[N, C]`, start indices `[M, 1]`, result `[M, C]`;
    the result's axis 1 is the offset axis, the operand's axis 0 is collapsed and is the one the start index names,
    the index vector lies along axis 1 of the start indices, and a slice is one row, `1 × C`. Their conditions `wf`
    are decided on literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the word `idx (e, 0)` as a signed integer, negative values taken to
    `0`, then cut to at most `N − 1`. It depends on neither the number of columns nor the entries. -/
def gatherRow (N : Nat) (hN : 0 < N) {M w : Nat} (idx : IVec ⟨2, ![M, 1]⟩ w) (e : Fin M) : Fin N :=
  ⟨min (idx (ix2 e (0 : Fin 1))).toInt.toNat (N - 1), by omega⟩

/-- On the row axis the operand index of result entry `(e, c)` is the clamped start index: no batching coordinate,
    and no offset coordinate on a collapsed axis. -/
theorem gather_operandIdx_zero {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 0).val = min (idx (ix2 e (0 : Fin 1))).toInt.toNat (N - 1) := by
  show (rowGatherDims N M C wf).start (ix2 e c) idx 0 + (rowGatherDims N M C wf).batchCoord (ix2 e c) 0
    + (rowGatherDims N M C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N M C wf).startIndexMap from List.mem_singleton.mpr rfl)]
  have hsi : (rowGatherDims N M C wf).siIdx (ix2 e c) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index of result entry `(e, c)` is `c`: the start is `0` on an axis the start
    index does not name, and the offset coordinate is the result's column. -/
theorem gather_operandIdx_one {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 1).val = c.val := by
  show (rowGatherDims N M C wf).start (ix2 e c) idx 1 + (rowGatherDims N M C wf).batchCoord (ix2 e c) 1
    + (rowGatherDims N M C wf).offCoord (ix2 e c) 1 = _
  rw [GatherDims.batchCoord_eq_zero _ _ _ List.not_mem_nil]
  have hs : (rowGatherDims N M C wf).start (ix2 e c) idx 1 = 0 := by
    unfold GatherDims.start
    rw [dif_neg (fun h => absurd (List.mem_singleton.mp h) (show ¬ ((1 : Fin 2) = 0) by decide))]
  rw [hs]
  simp only [Nat.add_zero, Nat.zero_add]
  unfold GatherDims.offCoord
  rw [dif_pos ((GatherDims.mem_sKept _ _).mpr
    ⟨fun h => absurd (List.mem_singleton.mp h) (show ¬ ((1 : Fin 2) = 0) by decide), List.not_mem_nil⟩)]
  rfl

/-- THE GATHER OF ROWS READ AT `(e, c)`: the operand at row `gatherRow N hN idx e` — the start index `idx (e, 0)` read
    signed and clamped into `[0, N − 1]` — and column `c`. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N M C wf) x idx (ix2 e c) = x (ix2 (gatherRow N hN idx e) c) := by
  unfold Host.gather
  congr 1
  funext a
  match a with
  | ⟨0, _⟩ => exact Fin.ext (gather_operandIdx_zero wf idx e c)
  | ⟨1, _⟩ => exact Fin.ext (gather_operandIdx_one wf idx e c)

end Gather

/-! ## The scatter-add of rows -/

section Scatter

/-- The dimension numbers of a scatter of whole rows: operand `[N, C]`, scatter indices `[M, 1]`, updates `[M, C]`;
    the updates' axis 1 is the window axis, the operand's axis 0 is inserted and is the one the scatter index names,
    and the index vector lies along axis 1 of the scatter indices. Their conditions `wf` are decided on literal
    shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The update rows that land on operand row `n`: the rows `e` whose index word `idx (e, 0)`, read as a signed
    integer and not clamped, is `n`. It depends on neither the number of columns nor the entries. -/
def landsOn {M w : Nat} (idx : IVec ⟨2, ![M, 1]⟩ w) (N : Nat) (n : Fin N) : Finset (Fin M) :=
  Finset.univ.filter (fun e => (idx (ix2 e (0 : Fin 1))).toInt = (n.val : Int))

/-- An axis is among the kept axes exactly when it is not among the removed ones. -/
theorem mem_kept {s : Shape} (axes : List (Fin s.rank)) (a : Fin s.rank) : a ∈ s.kept axes ↔ a ∉ axes := by
  simp [Shape.kept, List.mem_filter, List.mem_finRange]

/-- An update index `j` lands at the operand index `i` exactly when, on every axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have h' := Option.some.inj h
      have h2 : (d.start j idx a + (d.window j a : Int)).toNat = (i a).val := congrArg Fin.val (congrFun h' a)
      have := hb a
      omega
    · cases h
  · intro h
    have hb : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hb]
    congr 1
    funext a
    apply Fin.ext
    show (d.start j idx a + (d.window j a : Int)).toNat = (i a).val
    rw [h a]
    exact Int.toNat_natCast _

/-- On the row axis the start of update entry `(e, c)` is the index word `idx (e, 0)` read as a signed integer. -/
theorem scatter_start_zero {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e c)
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the start is `0`. -/
theorem scatter_start_one {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 1 = 0 := by
  unfold ScatterDims.start
  rw [dif_neg (fun h => absurd (List.mem_singleton.mp h) (show ¬ ((1 : Fin 2) = 0) by decide))]

/-- On the row axis, an inserted one, the window coordinate is `0`. -/
theorem scatter_window_zero {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 0 = 0 := by
  unfold ScatterDims.window
  rw [dif_neg (fun h => (mem_kept _ _).mp h (List.mem_singleton.mpr rfl))]

/-- On the column axis the window coordinate of update entry `(e, c)` is `c`. -/
theorem scatter_window_one {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 1 = c.val := by
  unfold ScatterDims.window
  rw [dif_pos ((mem_kept _ _).mpr
    (fun h => absurd (List.mem_singleton.mp h) (show ¬ ((1 : Fin 2) = 0) by decide)))]
  rfl

/-- Update entry `(e, c')` lands at operand entry `(n, c)` exactly when the columns agree and the signed index word
    of row `e` is `n`. -/
theorem resultIdx?_rows {N M C w : Nat} (wf : ScatterDims.WF ⟨2, ![N, C]⟩ ⟨2, ![M, 1]⟩ ⟨2, ![M, C]⟩ [1] [0] [0] 1)
    (idx : IVec ⟨2, ![M, 1]⟩ w) (e : Fin M) (c' c : Fin C) (n : Fin N) :
    (rowScatterDims N M C wf).resultIdx? (ix2 e c') idx = some (ix2 n c)
      ↔ c' = c ∧ (idx (ix2 e (0 : Fin 1))).toInt = (n.val : Int) := by
  rw [resultIdx?_eq_some_iff]
  rw [Fin.forall_fin_two]
  rw [scatter_start_zero, scatter_window_zero, scatter_start_one, scatter_window_one]
  show ((idx (ix2 e (0 : Fin 1))).toInt + ((0 : Nat) : Int) = (n.val : Int)
    ∧ (0 : Int) + (c'.val : Int) = (c.val : Int)) ↔ _
  constructor
  · rintro ⟨h0, h1⟩
    exact ⟨Fin.ext (by omega), by omega⟩
  · rintro ⟨rfl, h⟩
    exact ⟨by omega, by omega⟩

/-- THE SCATTER-ADD OF ROWS READ AT `(n, c)`: the operand's entry plus the sum, over the update rows `e` whose signed
    index word is `n`, of the update's entry `(e, c)`. -/
theorem scatterAdd_rows_apply {N M C w : Nat}
    (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ w) (upd : FVec Ideal ⟨2, ![M, C]⟩ .f32)
    (n : Fin N) (c : Fin C) :
    Host.scatterAdd (F := Ideal) (rowScatterDims N M C wf) x idx upd (ix2 n c)
      = x (ix2 n c) + ∑ e ∈ landsOn idx N n, upd (ix2 e c) := by
  unfold Host.scatterAdd
  rw [Ideal.hostScatterAdd_def]
  unfold Ideal.hostScatterAdd
  congr 1
  rw [Finset.sum_filter, sum_idx2]
  unfold landsOn
  rw [Finset.sum_filter]
  refine Finset.sum_congr rfl (fun e _ => ?_)
  simp only [resultIdx?_rows]
  by_cases hP : (idx (ix2 e (0 : Fin 1))).toInt = (n.val : Int)
  · simp [hP]
  · simp [hP]

end Scatter

end Cert.Lib.RowScatter

end
-- ==== Proof.LibGather1.lean ====
/-
  A gather from a column, read at an index, and two facts about the row a gather reads.

  For a column `x` of `N` entries and a column `idx` of `M` integer words (shape `[M, 1]`), the gather takes result entry
  `e` from the operand entry `idx[e]` read as a signed integer and clamped into `[0, N − 1]`: entry `e` of the result is
  `x (gatherRow idx e)`, the same clamped row that a gather of whole rows reads.

  * An index word whose signed reading is `n < N` makes the gather read row `n`: the clamp does nothing.
  * The usual wrap of a possibly negative index, `select (w < 0) (w + k) w`, leaves a non-negative word as it is.
-/
import Idealize.ShloMosaic.Lib.ValueIdx
import Idealize.ShloMosaic.Lib.Pipeline.Value
import proofs.«161336_j70437463654503_1_alg».proof.Proof.LibRowScatter

noncomputable section

namespace Cert.Lib.Gather1

open Idealize.ShloMosaic Idealize.ShloMosaic.ValueIdx Cert.Lib.RowScatter

section Gather
variable {α : Type}

/-- The dimension numbers of a gather of single entries from a column: operand `[N]`, start indices `[M, 1]`, result
    `[M]`; no offset axis, the operand's axis 0 collapsed and named by the start index, the index vector along axis 1
    of the start indices, a slice one entry. Their conditions `wf` are decided on literal shapes. -/
abbrev gather1Dims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER FROM A COLUMN READ AT `e`: the operand at `gatherRow N hN idx e`, the start index `idx (e, 0)` read signed
    and clamped into `[0, N − 1]`. -/
theorem gather1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gather1Dims N M wf) x idx (ix1 e) = x (ix1 (gatherRow N hN idx e)) := by
  unfold Host.gather
  congr 1
  funext a
  obtain rfl : a = 0 := Subsingleton.elim _ _
  refine Fin.ext ?_
  show (gather1Dims N M wf).start (ix1 e) idx 0 + (gather1Dims N M wf).batchCoord (ix1 e) 0
    + (gather1Dims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather1Dims N M wf).startIndexMap from List.mem_singleton.mpr rfl)]
  have hsi : (gather1Dims N M wf).siIdx (ix1 e) ⟨List.idxOf (0 : Fin 1) (gather1Dims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-- An index word whose signed reading is the row `n` makes a gather read row `n`. -/
theorem gatherRow_eq_of_toInt {N M w : Nat} (hN : 0 < N) (idx : IVec ⟨2, ![M, 1]⟩ w) (e : Fin M) (n : Fin N)
    (h : (idx (ix2 e (0 : Fin 1))).toInt = (n.val : Int)) : gatherRow N hN idx e = n := by
  refine Fin.ext ?_
  show min (idx (ix2 e (0 : Fin 1))).toInt.toNat (N - 1) = n.val
  rw [h, Int.toNat_natCast]
  have := n.isLt
  omega

/-- The wrap of a possibly negative index leaves a word whose signed reading is not negative as it is. -/
theorem select_wrap_of_nonneg (x k : BitVec 32) (h : 0 ≤ x.toInt) :
    Scalar.select (IntOp.cmpi .slt x 0#32) (IntOp.addi x k) x = x := by
  have hs : x.slt 0#32 = false := by
    rw [Bool.eq_false_iff]
    intro hs
    have hlt := BitVec.slt_iff_toInt_lt.mp hs
    rw [BitVec.toInt_zero] at hlt
    omega
  show Scalar.select (BitVec.ofBool (x.slt 0#32)) (IntOp.addi x k) x = x
  rw [hs]
  exact select_zero _ _

end Cert.Lib.Gather1

end
-- ==== Proof.LibScatter1.lean ====
/-
  A scatter-add into a column, read at an index.

  For a column `x` of `N` entries, a column `idx` of `M` integer words (shape `[M, 1]`) and `M` updates, the
  scatter-add puts update `e` onto the operand entry `idx[e]` read as a signed integer and not clamped (an update
  whose entry is outside `[0, N − 1]` is dropped): entry `n` of the result is
  `x n + ∑ e ∈ landsOn idx N n, upd e`, the sum over the updates whose index is `n` — the same set of updates a
  scatter-add of whole rows sends to row `n`.
-/
import Idealize.ShloMosaic.Lib.ValueIdx
import Idealize.ShloMosaic.PureOps.Ideal.Laws
import Idealize.ShloMosaic.Lib.Pipeline.Value
import proofs.«161336_j70437463654503_1_alg».proof.Proof.LibRowScatter

noncomputable section

open scoped BigOperators

namespace Cert.Lib.Scatter1

open Idealize.ShloMosaic Idealize.ShloMosaic.ValueIdx Cert.Lib.RowScatter

/-- The indices of a column of `M` entries are the numbers below `M`. -/
def idx1Equiv (M : Nat) : Fin M ≃ (⟨1, ![M]⟩ : Shape).Idx where
  toFun := ix1
  invFun j := j 0
  left_inv _ := rfl
  right_inv j := (eq_ix1 j).symm

/-- A sum over the indices of a column is the sum over its entries' numbers. -/
theorem sum_idx1 {A : Type*} [AddCommMonoid A] {M : Nat} (f : (⟨1, ![M]⟩ : Shape).Idx → A) :
    ∑ i, f i = ∑ e : Fin M, f (ix1 e) :=
  (Equiv.sum_comp (idx1Equiv M) f).symm

/-- The dimension numbers of a scatter of single entries into a column: operand `[N]`, scatter indices `[M, 1]`,
    updates `[M]`; no window axis, the operand's axis 0 inserted and named by the scatter index, the index vector along
    axis 1 of the scatter indices. Their conditions `wf` are decided on literal shapes. -/
abbrev scatter1Dims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The start of update `e` is the index word `idx (e, 0)` read as a signed integer. -/
theorem scatter1_start {N M w : Nat} (wf : ScatterDims.WF ⟨1, ![N]⟩ ⟨2, ![M, 1]⟩ ⟨1, ![M]⟩ [] [0] [0] 1)
    (idx : IVec ⟨2, ![M, 1]⟩ w) (e : Fin M) :
    (scatter1Dims N M wf).start (ix1 e) idx 0 = (idx (ix2 e (0 : Fin 1))).toInt := by
  unfold ScatterDims.start
  rw [dif_pos (show (0 : Fin 1) ∈ (scatter1Dims N M wf).scatterDimsToOperandDims from List.mem_singleton.mpr rfl)]
  have hsi : (scatter1Dims N M wf).siIdx (ix1 e)
      ⟨List.idxOf (0 : Fin 1) (scatter1Dims N M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the one axis, an inserted one, the window coordinate is `0`. -/
theorem scatter1_window {N M : Nat} (wf : ScatterDims.WF ⟨1, ![N]⟩ ⟨2, ![M, 1]⟩ ⟨1, ![M]⟩ [] [0] [0] 1) (e : Fin M) :
    (scatter1Dims N M wf).window (ix1 e) 0 = 0 := by
  unfold ScatterDims.window
  rw [dif_neg (fun h => (mem_kept _ _).mp h (List.mem_singleton.mpr rfl))]

/-- Update `e` lands at operand entry `n` exactly when its signed index word is `n`. -/
theorem resultIdx?_one {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (scatter1Dims N M wf).resultIdx? (ix1 e) idx = some (ix1 n)
      ↔ (idx (ix2 e (0 : Fin 1))).toInt = (n.val : Int) := by
  rw [resultIdx?_eq_some_iff]
  constructor
  · intro h
    have h0 := h 0
    rw [scatter1_start, scatter1_window] at h0
    change (idx (ix2 e (0 : Fin 1))).toInt + ((0 : Nat) : Int) = (n.val : Int) at h0
    omega
  · intro h a
    obtain rfl : a = 0 := Subsingleton.elim _ _
    rw [scatter1_start, scatter1_window]
    show _ + ((0 : Nat) : Int) = (n.val : Int)
    omega

/-- THE SCATTER-ADD INTO A COLUMN READ AT `n`: the operand's entry plus the sum, over the updates `e` whose signed
    index word is `n`, of update `e`. -/
theorem scatterAdd1_apply {N M w : Nat}
    (wf : ScatterDims.WF ⟨1, ![N]⟩ ⟨2, ![M, 1]⟩ ⟨1, ![M]⟩ [] [0] [0] 1)
    (x : FVec Ideal ⟨1, ![N]⟩ .f32) (idx : IVec ⟨2, ![M, 1]⟩ w) (upd : FVec Ideal ⟨1, ![M]⟩ .f32) (n : Fin N) :
    Host.scatterAdd (F := Ideal) (scatter1Dims N M wf) x idx upd (ix1 n)
      = x (ix1 n) + ∑ e ∈ landsOn idx N n, upd (ix1 e) := by
  unfold Host.scatterAdd
  rw [Ideal.hostScatterAdd_def]
  unfold Ideal.hostScatterAdd
  congr 1
  rw [Finset.sum_filter, sum_idx1]
  unfold landsOn
  rw [Finset.sum_filter]
  refine Finset.sum_congr rfl (fun e _ => ?_)
  simp only [resultIdx?_one]

end Cert.Lib.Scatter1

end
-- ==== Proof.RefValue.lean ====
/-
  The reference, read as one formula.

  The reference forms, per row `b`, the squared distance of the hidden row from its predicted centre (the centre row
  that the label `y b` selects), divides it by the row's class count, sums the `65536` quotients from zero, and
  returns `(1/2 · s) / (s + ε)` of that sum `s`.

  The class count of row `b` is read from a table of `1000` counts at the position the label selects; each entry of
  the table is `(0 + one `1` for every label that lands on it) + 1`. So every count is at least `1`: no count is `0`.
-/
import proofs.«161336_j70437463654503_1_alg».proof.Proof.Gen.ReferenceIdeal.Read
import proofs.«161336_j70437463654503_1_alg».proof.Proof.WeightedDist
import proofs.«161336_j70437463654503_1_alg».proof.Proof.LibGather1
import proofs.«161336_j70437463654503_1_alg».proof.Proof.LibScatter1

noncomputable section

open scoped BigOperators

namespace Cert.ReferenceIdeal.RefValue

open Cert.ReferenceIdeal Cert.ReferenceIdeal.Gen Cert.ReferenceIdeal.Read
open Idealize.ShloMosaic Idealize.ShloMosaic.ValueIdx Cert.WeightedDist

variable (y : (⟨S65536, .i32⟩ : BufTy).Contents (Elt Ideal)) (hid : (⟨S65536x512, .f32⟩ : BufTy).Contents (Elt Ideal))
  (cen : (⟨S1000x512, .f32⟩ : BufTy).Contents (Elt Ideal))

/-- Every entry of the table of counts is `(0 + a sum of ones) + 1`. -/
theorem table_apply (n : Fin 1000) :
    (val_main_v10 (F := Ideal) y (ix1 n) : EReal)
      = ((0 : EReal) + ∑ _e ∈ Cert.Lib.RowScatter.landsOn (val_main_v6 (F := Ideal) y) 1000 n, (1 : EReal)) + 1 := by
  rw [val_main_v10_apply, Ideal.addf_def]
  unfold val_main_v8
  rw [show scatter_S1000_S65536x1_S65536_n_0_0_1 = Cert.Lib.Scatter1.scatter1Dims 1000 65536 _ from rfl,
    Cert.Lib.Scatter1.scatterAdd1_apply]
  rw [val_main_v0_apply, val_main_cst_apply, val_main_v9_apply, val_main_cst_2_apply]
  simp only [val_main_v7_apply, val_main_cst_1_apply, Ideal.ofBits_def, Ideal.ofBits_zero_f32, ofBits_one]

/-- No row's class count is `0`. -/
theorem count_ne (b : Fin 65536) : (val_main_v17 (F := Ideal) y (ix1 b) : EReal) ≠ 0 := by
  unfold val_main_v17
  rw [show gather_S1000_S65536x1_S65536_n_0_n_n_0_1_1 = Cert.Lib.Gather1.gather1Dims 1000 65536 _ from rfl,
    Cert.Lib.Gather1.gather1_apply (by decide), table_apply]
  exact count_ne_zero _

/-- One row's quotient: its squared distance, formed from zero, over its count. -/
theorem quotient_apply (j : S65536.Idx) :
    (val_main_v28 (F := Ideal) y hid cen j : EReal)
      = Ideal.div (0 + Cert.WeightedDist.dist hid (val_main_v24 (F := Ideal) y cen) (j 0)) (val_main_v17 (F := Ideal) y j) := by
  obtain ⟨b, rfl⟩ : ∃ b : Fin 65536, j = ix1 b := ⟨j 0, eq_ix1 j⟩
  rw [val_main_v28_apply, val_main_v27_apply, val_main_cst_7_apply]
  simp only [Ideal.hostDivf_def, Ideal.ofBits_def, Ideal.ofBits_zero_f32]
  congr 2
  unfold Cert.WeightedDist.dist
  refine Finset.sum_congr rfl fun d _ => ?_
  rw [val_main_v26_apply, val_main_v25_apply]
  have hi : idx_main_v27 (ix1 b) d = ix2 b d :=
    funext fun a => Fin.ext (by match a with | ⟨0, _⟩ => rfl | ⟨1, _⟩ => rfl)
  rw [hi]
  rfl

/-- THE REFERENCE'S RESULT: the loss of the sum over all rows of distance over count. -/
theorem result_eq :
    val_main_v32 (F := Ideal) y hid cen
      = lossOf (rowSum 0 hid (val_main_v24 (F := Ideal) y cen) (val_main_v17 (F := Ideal) y)) := by
  funext i
  rw [val_main_v32_apply, val_main_v30_apply, val_main_v31_apply, val_main_v29_apply, val_main_cst_9_apply,
    val_main_cst_10_apply, val_main_cst_8_apply]
  simp only [Ideal.hostDivf_def, Ideal.mulf_def, Ideal.addf_def, Ideal.ofBits_def, Ideal.ofBits_zero_f32,
    quotient_apply]
  rfl

end Cert.ReferenceIdeal.RefValue

end
-- ==== Proof.lean ====
/-
  A contrastive centre loss: the kernel and the reference compute the same number.

  Inputs: `65536` integer labels `y`, `65536 × 512` hidden rows, `1000 × 512` class centres. Both programs first
  count the labels per class into a table `(0 + number of rows with that label) + 1`, and gather for every row `b` the
  centre row `p b` and the count `n b` that `y b` selects. With `dist b = ∑ d, (h (b, d) − p (b, d))²`:

    the reference returns `(1/2 · s) / (s + ε)` for `s = 0 + ∑ b, (0 + dist b) / n b`;
    the kernel forms the weights `1 / n b` on the host, then walks over `64` blocks of `1024` rows keeping a running
    total that starts at a stored zero and adds `∑ r, dist (1024 t + r) · (1 / n (1024 t + r))` at block `t`, and the
    host finishes with the same `(1/2 · s) / (s + ε)`.

  Over the extended reals the two sums agree: every count is at least `1`, hence not `0`, so `x · (1 / n) = x / n`
  for every extended real `x`; and a sum of extended reals may be regrouped into blocks. No finiteness of the inputs is
  used. The three programs' frames are the generated ones (the reference's is its generated run with the result
  dropped); the idealized kernel is the kernel's own text read over the extended reals, so the preservation claim is
  `True`.
-/
import proofs.«161336_j70437463654503_1_alg».proof.Defs
import proofs.«161336_j70437463654503_1_alg».proof.Proof.Gen.Kernel
import proofs.«161336_j70437463654503_1_alg».proof.Proof.Gen.Kernel.Skeleton
import proofs.«161336_j70437463654503_1_alg».proof.Proof.Gen.Kernel.Launch
import proofs.«161336_j70437463654503_1_alg».proof.Proof.Gen.Kernel.Points
import proofs.«161336_j70437463654503_1_alg».proof.Proof.Gen.Kernel.Frame
import proofs.«161336_j70437463654503_1_alg».proof.Proof.Gen.KernelIdeal
import proofs.«161336_j70437463654503_1_alg».proof.Proof.Gen.KernelIdeal.Skeleton
import proofs.«161336_j70437463654503_1_alg».proof.Proof.Gen.KernelIdeal.Launch
import proofs.«161336_j70437463654503_1_alg».proof.Proof.Gen.KernelIdeal.Points
import proofs.«161336_j70437463654503_1_alg».proof.Proof.Gen.KernelIdeal.Frame
import proofs.«161336_j70437463654503_1_alg».proof.Proof.Gen.ReferenceIdeal
import proofs.«161336_j70437463654503_1_alg».proof.Proof.Gen.ReferenceIdeal.Run
import proofs.«161336_j70437463654503_1_alg».proof.Proof.Gen.ReferenceIdeal.Read
import proofs.«161336_j70437463654503_1_alg».proof.Proof.Gen.Pre_finite_inputs
import proofs.«161336_j70437463654503_1_alg».proof.Proof.KernelSum
import proofs.«161336_j70437463654503_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the loss of one weighted sum of squared distances: the kernel's summed block by block with
    weights `1 / count`, the reference's over all rows with quotients by the count; the counts are never `0`, so the
    two sums are one extended real. -/
theorem algebraic : Cert.algebraic_KernelIdeal_ReferenceIdeal := by
  intro m ρ m' ρ' _ hagree
  refine ⟨fun c => Cert.WeightedDist.lossOf (Cert.WeightedDist.blockSum (Cert.KernelIdeal.KernelSum.hidden m c)
    (Cert.KernelIdeal.KernelSum.centres m c) (Cert.KernelIdeal.KernelSum.weights m c)),
    Cert.KernelIdeal.KernelSum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.result_eq, (hagree c).1, (hagree c).2.1,
    (hagree c).2.2]
  refine congrArg Cert.WeightedDist.lossOf ?_
  exact (Cert.WeightedDist.blockSum_eq_rowSum _ _ _ _ (Cert.KernelIdeal.KernelSum.weight_apply m c)
    (fun b => Cert.ReferenceIdeal.RefValue.count_ne _ b)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
